-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S16x1024 : Shape := ⟨2, ![16, 1024]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16x4096x128 .f32) (main_arg1 : IVec S16x1024 32) (main_arg2 : IVec S16x1024 32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_c_0 : IVec S_ 32 := constantI S_ 32 0#32
  let main_v4 : IVec S16x1024 32 := broadcastInDim S16x1024 ![] bcast_S_S16x1024 main_c_0
  let main_v5 : IVec S16x1024 1 := cmpi .sge main_arg1 main_v4
  let main_c_1 : IVec S_ 32 := constantI S_ 32 4095#32
  let main_v6 : IVec S16x1024 32 := broadcastInDim S16x1024 ![] bcast_S_S16x1024 main_c_1
  let main_v7 : IVec S16x1024 1 := cmpi .sle main_arg1 main_v6
  let main_v8 : IVec S16x1024 1 := andi main_v5 main_v7
  let main_c_2 : IVec S_ 32 := constantI S_ 32 0#32
  let main_v9 : IVec S16x1024 32 := broadcastInDim S16x1024 ![] bcast_S_S16x1024 main_c_2
  let main_v10 : IVec S16x1024 1 := cmpi .sge main_arg2 main_v9
  let main_v11 : IVec S16x1024 1 := andi main_v8 main_v10
  let main_c_3 : IVec S_ 32 := constantI S_ 32 4095#32
  let main_v12 : IVec S16x1024 32 := broadcastInDim S16x1024 ![] bcast_S_S16x1024 main_c_3
  let main_v13 : IVec S16x1024 1 := cmpi .sle main_arg2 main_v12
  let main_v14 : IVec S16x1024 1 := andi main_v11 main_v13
  let main_c_4 : IVec S_ 1 := constantI S_ 1 1#1
  let main_v15 : IVec S_ 1 := (fun x v => Host.reduce IntOp.andi x v reducesTo_S16x1024_S_d0_1 h_S_) main_v14 main_c_4
  let main_v16 : IVec S_ 1 := andi main_v3 main_v15
  main_v16
-- ==== Kernel.lean ====
abbrev S16x4096x128 : Shape := ⟨3, ![16, 4096, 128]⟩
abbrev S16x1024 : Shape := ⟨2, ![16, 1024]⟩
abbrev S16x1024x1 : Shape := ⟨3, ![16, 1024, 1]⟩
abbrev S16x1024x128 : Shape := ⟨3, ![16, 1024, 128]⟩
abbrev S1x4096x128 : Shape := ⟨3, ![1, 4096, 128]⟩
abbrev S1x1024x1 : Shape := ⟨3, ![1, 1024, 1]⟩
abbrev S1x1024x128 : Shape := ⟨3, ![1, 1024, 128]⟩
abbrev S1024x1 : Shape := ⟨2, ![1024, 1]⟩
abbrev S1024x128 : Shape := ⟨2, ![1024, 128]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16x4096x128, .f32⟩
  | .hbm, ⟨1, _⟩ => ⟨S16x1024, .i32⟩
  | .hbm, ⟨2, _⟩ => ⟨S16x1024, .i32⟩
  | .hbm, ⟨3, _⟩ => ⟨S16x1024x1, .i32⟩
  | .hbm, ⟨4, _⟩ => ⟨S16x1024x1, .i32⟩
  | .hbm, ⟨5, _⟩ => ⟨S16x1024x128, .f32⟩
  | .local _ .vmem, ⟨0, _⟩ => ⟨S1x4096x128, .f32⟩
  | .local _ .vmem, ⟨1, _⟩ => ⟨S1x4096x128, .f32⟩
  | .local _ .vmem, ⟨2, _⟩ => ⟨S1x1024x1, .i32⟩
  | .local _ .vmem, ⟨3, _⟩ => ⟨S1x1024x1, .i32⟩
  | .local _ .vmem, ⟨4, _⟩ => ⟨S1x1024x1, .i32⟩
  | .local _ .vmem, ⟨5, _⟩ => ⟨S1x1024x1, .i32⟩
  | .local _ .vmem, ⟨6, _⟩ => ⟨S1x1024x128, .f32⟩
  | .local _ .vmem, ⟨7, _⟩ => ⟨S1x1024x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16x1024_S16x1024x1_0_1 : S16x1024.BroadcastsInDim S16x1024x1 (![0, 1] : Fin 2 → Fin S16x1024x1.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x1024_d1_w32 : S1024x1024.Iotas .tc 32 [1]
  broadcasts_S1024x1_S1024x1024 : S1024x1.Broadcasts S1024x1024
  natLt_1_32 : 1 < 32
  inb_S1x4096x128_S1x1024x128_0_0_0 : ∀ a, (![0, 0, 0] : Fin 3 → Nat) a + S1x1024x128.size a ≤ S1x4096x128.size a
  h_S1x1024x128 : 0 < S1x1024x128.numel
  shapeCasts_S1x1024x128_S1024x128 : S1x1024x128.ShapeCasts S1024x128
  inb_S1x4096x128_S1x1024x128_0_1024_0 : ∀ a, (![0, 1024, 0] : Fin 3 → Nat) a + S1x1024x128.size a ≤ S1x4096x128.size a
  inb_S1x4096x128_S1x1024x128_0_2048_0 : ∀ a, (![0, 2048, 0] : Fin 3 → Nat) a + S1x1024x128.size a ≤ S1x4096x128.size a
  inb_S1x4096x128_S1x1024x128_0_3072_0 : ∀ a, (![0, 3072, 0] : Fin 3 → Nat) a + S1x1024x128.size a ≤ S1x4096x128.size a
  broadcasts_S1024x1_S1024x128 : S1024x1.Broadcasts S1024x128
  inb_S1x1024x128_S1x1024x128_0_0_0 : ∀ a, (![0, 0, 0] : Fin 3 → Nat) a + S1x1024x128.size a ≤ S1x1024x128.size a
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x4096x128.size a
  hwx0_0 : ∀ i : grid0.Coords, EltTy.bits .f32 = 32 ∨ (Rect.block (s := S16x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S16x1024x1.size a
  hwx0_1 : ∀ i : grid0.Coords, EltTy.bits .i32 = 32 ∨ (Rect.block (s := S16x1024x1) S1x1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x1024x1.size a
  hwx0_2 : ∀ i : grid0.Coords, EltTy.bits .i32 = 32 ∨ (Rect.block (s := S16x1024x1) S1x1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S16x1024x128.size a
  hwx0_3 : ∀ i : grid0.Coords, EltTy.bits .f32 = 32 ∨ (Rect.block (s := S16x1024x128) S1x1024x128.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S16x1024 : Shape := ⟨2, ![16, 1024]⟩
abbrev S4096 : Shape := ⟨1, ![4096]⟩
abbrev S16x1024x1 : Shape := ⟨3, ![16, 1024, 1]⟩
abbrev S1x1x4096 : Shape := ⟨3, ![1, 1, 4096]⟩
abbrev S16x1024x4096 : Shape := ⟨3, ![16, 1024, 4096]⟩
abbrev S16x1024x128 : Shape := ⟨3, ![16, 1024, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x1024, .i32⟩
  | .hbm, ⟨2, _⟩ => ⟨S16x1024, .i32⟩
  | .hbm, ⟨3, _⟩ => ⟨S4096, .i32⟩
  | .hbm, ⟨4, _⟩ => ⟨S16x1024x1, .i32⟩
  | .hbm, ⟨5, _⟩ => ⟨S1x1x4096, .i32⟩
  | .hbm, ⟨6, _⟩ => ⟨S16x1024x4096, .i32⟩
  | .hbm, ⟨7, _⟩ => ⟨S16x1024x4096, .i32⟩
  | .hbm, ⟨8, _⟩ => ⟨S16x1024x4096, .i1⟩
  | .hbm, ⟨9, _⟩ => ⟨S16x1024x1, .i32⟩
  | .hbm, ⟨10, _⟩ => ⟨S1x1x4096, .i32⟩
  | .hbm, ⟨11, _⟩ => ⟨S16x1024x4096, .i32⟩
  | .hbm, ⟨12, _⟩ => ⟨S16x1024x4096, .i32⟩
  | .hbm, ⟨13, _⟩ => ⟨S16x1024x4096, .i1⟩
  | .hbm, ⟨14, _⟩ => ⟨S16x1024x4096, .i1⟩
  | .hbm, ⟨15, _⟩ => ⟨S16x1024x4096, .f32⟩
  | .hbm, ⟨16, _⟩ => ⟨S16x1024x128, .f32⟩
  | .hbm, ⟨17, _⟩ => ⟨S_, .f32⟩
  | .hbm, ⟨18, _⟩ => ⟨S16x1024, .f32⟩
  | .hbm, ⟨19, _⟩ => ⟨S16x1024x1, .f32⟩
  | .hbm, ⟨20, _⟩ => ⟨S16x1024x128, .f32⟩
  | .hbm, ⟨21, _⟩ => ⟨S16x1024x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]

class Facts₀ : Prop where
  bcast_S16x1024_S16x1024x1_0_1 : S16x1024.BroadcastsInDim S16x1024x1 (![0, 1] : Fin 2 → Fin S16x1024x1.rank)
  bcast_S4096_S1x1x4096_2 : S4096.BroadcastsInDim S1x1x4096 (![2] : Fin 1 → Fin S1x1x4096.rank)
  bcast_S16x1024x1_S16x1024x4096_0_1_2 : S16x1024x1.BroadcastsInDim S16x1024x4096 (![0, 1, 2] : Fin 3 → Fin S16x1024x4096.rank)
  bcast_S1x1x4096_S16x1024x4096_0_1_2 : S1x1x4096.BroadcastsInDim S16x1024x4096 (![0, 1, 2] : Fin 3 → Fin S16x1024x4096.rank)
  reducesTo_S16x1024x4096_S16x1024_d2 : S16x1024x4096.ReducesTo [2] S16x1024
  h_S_ : 0 < S_.numel
  bcast_S16x1024x1_S16x1024x128_0_1_2 : S16x1024x1.BroadcastsInDim S16x1024x128 (![0, 1, 2] : Fin 3 → Fin S16x1024x128.rank)
  dot_S16x1024x4096_S16x4096x128_S16x1024x128_2_1_1_2_0_0_wf : DotDims.WF S16x1024x4096 S16x4096x128 S16x1024x128 [2] [1] [1] [2] [0] [0]

variable [Facts₀]

def dot_S16x1024x4096_S16x4096x128_S16x1024x128_2_1_1_2_0_0 : DotDims S16x1024x4096 S16x4096x128 S16x1024x128 where
  lhsContracting := [2]
  rhsContracting := [1]
  lhsNonContracting := [1]
  rhsNonContracting := [2]
  lhsBatch := [0]
  rhsBatch := [0]
  wf := dot_S16x1024x4096_S16x4096x128_S16x1024x128_2_1_1_2_0_0_wf

class Facts : Prop extends Facts₀ where

variable [Facts]
-- ==== Proof.SpanMath.lean ====
/-
  Span pooling: the arithmetic both programs share, on the extended reals.

  A span is a pair of 32-bit words (s, e), read as signed integers; token t (0 ≤ t < 4096) carries the weight 1 when
  s ≤ t ≤ e and 0 otherwise.  Both programs divide the same weighted sum of a column of x by a count of the span:
  one adds the 4096 weights, the other takes max (e - s + 1, 0) in 32-bit arithmetic.  The two counts agree when
  s and e are token positions, 0 ≤ s, e ≤ 4095: then e - s + 1 does not wrap and is the number of integers of
  [s, e] when s ≤ e, and is ≤ 0 when the interval is empty.  One program adds the weighted sum in four runs of 1024
  consecutive tokens, starting from zero; addition of extended reals is associative and commutative, so this is the
  whole sum.
-/
import Idealize.ShloMosaic.PureOps.Ideal
import Idealize.ShloMosaic.PureOps.Ideal.Laws

noncomputable section

namespace Cert.SpanPool

open Idealize.ShloMosaic

/-- Token `t` lies in the inclusive span whose start and end words are `s` and `e` (signed comparison), as one bit. -/
def inSpan (s e : BitVec 32) (t : ℕ) : BitVec 1 :=
  IntOp.andi (IntOp.cmpi .sle s (BitVec.ofNat 32 t)) (IntOp.cmpi .sle (BitVec.ofNat 32 t) e)

/-- The weight of token `t`: 1 inside the span, 0 outside. -/
def wt (s e : BitVec 32) (t : ℕ) : EReal := (((inSpan s e t).toNat : ℝ) : EReal)

/-- Token `o + j` of the sequence, for the run of 1024 tokens that starts at `o`. -/
def tok (o : ℕ) (h : o + 1024 ≤ 4096) (j : Fin 1024) : Fin 4096 := ⟨o + j.val, by have := j.isLt; omega⟩

/-- The weighted sum of a column over all 4096 tokens. -/
def total (s e : BitVec 32) (col : Fin 4096 → EReal) : EReal := ∑ t : Fin 4096, wt s e t.val * col t

/-- The same sum added in four runs of 1024 consecutive tokens, from zero, in order. -/
def chunked (s e : BitVec 32) (col : Fin 4096 → EReal) : EReal :=
  (((0 + ∑ j : Fin 1024, wt s e (0 + j.val) * col (tok 0 (by decide) j))
      + ∑ j : Fin 1024, wt s e (1024 + j.val) * col (tok 1024 (by decide) j))
      + ∑ j : Fin 1024, wt s e (2048 + j.val) * col (tok 2048 (by decide) j))
      + ∑ j : Fin 1024, wt s e (3072 + j.val) * col (tok 3072 (by decide) j)

/-- The number of tokens of the span: the sum of the 4096 weights, from zero. -/
def tokCount (s e : BitVec 32) : EReal := 0 + ∑ t : Fin 4096, wt s e t.val

/-- The span's length as 32-bit arithmetic computes it, e - s + 1 read signed, cut off below at zero. -/
def spanLen (s e : BitVec 32) : EReal := max ((((IntOp.addi (IntOp.subi e s) 1#32).toInt : ℝ)) : EReal) 0

/-! ## A sum over 4096 positions in four runs -/

theorem sum_four_runs {M : Type*} [AddCommMonoid M] (g : Fin 4096 → M) :
    ∑ t : Fin 4096, g t
      = (((0 + ∑ j : Fin 1024, g (tok 0 (by decide) j)) + ∑ j : Fin 1024, g (tok 1024 (by decide) j))
          + ∑ j : Fin 1024, g (tok 2048 (by decide) j)) + ∑ j : Fin 1024, g (tok 3072 (by decide) j) := by
  have h : ∑ t : Fin (1024 + 1024 + 1024 + 1024), g t
      = ((∑ j : Fin 1024, g (tok 0 (by decide) j) + ∑ j : Fin 1024, g (tok 1024 (by decide) j))
          + ∑ j : Fin 1024, g (tok 2048 (by decide) j)) + ∑ j : Fin 1024, g (tok 3072 (by decide) j) := by
    rw [Fin.sum_univ_add, Fin.sum_univ_add, Fin.sum_univ_add]
    refine congrArg₂ (· + ·) (congrArg₂ (· + ·) (congrArg₂ (· + ·) ?_ ?_) ?_) ?_
    all_goals exact Finset.sum_congr rfl fun j _ => congrArg g (Fin.ext (by
      simp only [tok, Fin.coe_castAdd, Fin.coe_natAdd] <;> omega))
  rw [zero_add]
  exact h

theorem chunked_eq_total (s e : BitVec 32) (col : Fin 4096 → EReal) : chunked s e col = total s e col := by
  unfold chunked total
  exact (sum_four_runs fun t => wt s e t.val * col t).symm

/-! ## The weight as a condition on integers -/

theorem ofBool_and_toNat (p q : Bool) :
    (IntOp.andi (BitVec.ofBool p) (BitVec.ofBool q)).toNat = if (p = true ∧ q = true) then 1 else 0 := by
  cases p <;> cases q <;> rfl

theorem toInt_ofNat_tok (t : ℕ) (ht : t < 4096) : (BitVec.ofNat 32 t).toInt = (t : ℤ) := by
  have h : (BitVec.ofNat 32 t).toNat = t := by
    rw [BitVec.toNat_ofNat]; exact Nat.mod_eq_of_lt (by omega)
  unfold BitVec.toInt
  rw [h]
  split <;> omega

theorem wt_eq (s e : BitVec 32) (t : ℕ) (ht : t < 4096) :
    wt s e t = (((if (s.toInt ≤ (t : ℤ) ∧ (t : ℤ) ≤ e.toInt) then (1 : ℝ) else 0) : ℝ) : EReal) := by
  unfold wt inSpan IntOp.cmpi
  rw [ofBool_and_toNat]
  simp only [BitVec.sle, decide_eq_true_eq, toInt_ofNat_tok t ht]
  split <;> simp

/-! ## The two counts -/

theorem coe_sum {ι : Type*} (S : Finset ι) (f : ι → ℝ) : ((∑ i ∈ S, f i : ℝ) : EReal) = ∑ i ∈ S, (f i : EReal) := by
  classical
  refine Finset.induction_on S (by simp) fun a S ha ih => ?_
  rw [Finset.sum_insert ha, Finset.sum_insert ha, EReal.coe_add, ih]

/-- The number of t < 4096 with a ≤ t ≤ b, for b < 4096, is b + 1 - a (cut off at zero). -/
theorem count_between (a b : ℕ) (hb : b < 4096) :
    (∑ t : Fin 4096, (if (a ≤ t.val ∧ t.val ≤ b) then (1 : ℝ) else 0)) = ((b + 1 - a : ℕ) : ℝ) := by
  rw [Fin.sum_univ_eq_sum_range (fun t => if (a ≤ t ∧ t ≤ b) then (1 : ℝ) else 0) 4096, Finset.sum_boole]
  congr 1
  have : (Finset.range 4096).filter (fun t => a ≤ t ∧ t ≤ b) = Finset.Icc a b := by
    ext t; simp only [Finset.mem_filter, Finset.mem_range, Finset.mem_Icc]; omega
  rw [this, Nat.card_Icc]

/-- For token positions s and e the 32-bit e - s + 1 does not wrap. -/
theorem toInt_len (s e : BitVec 32) (hs0 : 0 ≤ s.toInt) (hs1 : s.toInt ≤ 4095) (he0 : 0 ≤ e.toInt) (he1 : e.toInt ≤ 4095) :
    (IntOp.addi (IntOp.subi e s) 1#32).toInt = e.toInt - s.toInt + 1 := by
  unfold IntOp.addi IntOp.subi
  rw [BitVec.toInt_add, BitVec.toInt_sub]
  have h1 : (1#32 : BitVec 32).toInt = 1 := by decide
  rw [h1]
  have h2 : ((2 ^ 32 : ℕ) : ℤ) = 4294967296 := by norm_num
  rw [Int.bmod_eq_of_le_mul_two (x := e.toInt - s.toInt) (by rw [h2]; omega) (by rw [h2]; omega)]
  exact Int.bmod_eq_of_le_mul_two (by rw [h2]; omega) (by rw [h2]; omega)

/-- THE COUNTS AGREE on token positions: the number of tokens in [s, e] is max (e - s + 1, 0). -/
theorem tokCount_eq_spanLen (s e : BitVec 32) (hs0 : 0 ≤ s.toInt) (hs1 : s.toInt ≤ 4095) (he0 : 0 ≤ e.toInt) (he1 : e.toInt ≤ 4095) :
    tokCount s e = spanLen s e := by
  unfold tokCount spanLen
  rw [zero_add, toInt_len s e hs0 hs1 he0 he1]
  obtain ⟨a, ha⟩ := Int.eq_ofNat_of_zero_le hs0
  obtain ⟨b, hb⟩ := Int.eq_ofNat_of_zero_le he0
  have hb' : b < 4096 := by omega
  have hsum : ∑ t : Fin 4096, wt s e t.val = (((b + 1 - a : ℕ) : ℝ) : EReal) := by
    rw [← count_between a b hb', coe_sum]
    refine Finset.sum_congr rfl fun t _ => ?_
    rw [wt_eq s e t.val t.isLt, ha, hb]
    simp only [Nat.cast_le]
  rw [hsum, ha, hb]
  have hmax : max ((((b : ℤ) - (a : ℤ) + 1 : ℤ) : ℝ) : EReal) 0 = ((max ((((b : ℤ) - (a : ℤ) + 1 : ℤ)) : ℝ) 0 : ℝ) : EReal) :=
    (EReal.coe_strictMono.monotone.map_max (a := ((((b : ℤ) - (a : ℤ) + 1 : ℤ)) : ℝ)) (b := 0)).symm
  rw [hmax]
  refine congrArg (fun r : ℝ => (r : EReal)) ?_
  by_cases hab : a ≤ b + 1
  · rw [max_eq_left (by push_cast; exact_mod_cast (by omega : (0 : ℤ) ≤ (b : ℤ) - a + 1))]
    push_cast [Nat.cast_sub hab]; ring
  · have h0 : b + 1 - a = 0 := by omega
    rw [h0, max_eq_right (by push_cast; exact_mod_cast (by omega : (b : ℤ) - a + 1 ≤ 0))]
    simp

end Cert.SpanPool

end
-- ==== Proof.SpanRange.lean ====
/-
  The precondition read back as bounds on the span words.

  The precondition's integer half is one conjunction over all (b, n): start(b, n) ≥ 0, start(b, n) ≤ 4095,
  end(b, n) ≥ 0 and end(b, n) ≤ 4095, every comparison signed, folded by "and" from the constant 1 over both axes into
  one bit, which is then "and"ed with the bit of the float half.  If the whole predicate is 1 then so is the integer
  half; a fold by "and" that came out 1 met a 1 at every (b, n); and each of the four comparisons being 1 says the
  inequality of the words read as signed integers, with the constant words 0 and 4095 reading as 0 and 4095.
-/
import proofs.«153696_j31129922962206_2_alg».proof.Pre_finite_inputs
import Idealize.ShloMosaic.Lib.ReduceAll
import Idealize.ShloMosaic.Lib.ValueIdx

noncomputable section

namespace Cert.SpanPool

open Idealize.ShloMosaic

/-- THE PRECONDITION DECODED at (b, n): both span words are token positions, 0 ≤ start, end ≤ 4095 read signed. -/
theorem range_of_pre {F : FTy → Type} [FloatOps F] [Cert.Pre_finite_inputs.Facts]
    (x : FVec F Cert.Pre_finite_inputs.S16x4096x128 .f32) (st en : IVec Cert.Pre_finite_inputs.S16x1024 32)
    (h : Cert.Pre_finite_inputs.fn (F := F) x st en = (fun _ => 1#1)) (b : Fin 16) (n : Fin 1024) :
    (0 ≤ (st (ValueIdx.ix2 b n)).toInt ∧ (st (ValueIdx.ix2 b n)).toInt ≤ 4095)
    ∧ (0 ≤ (en (ValueIdx.ix2 b n)).toInt ∧ (en (ValueIdx.ix2 b n)).toInt ≤ 4095) := by
  have e := congrFun h ValueIdx.ix0
  unfold Cert.Pre_finite_inputs.fn at e
  dsimp only at e
  -- the predicate is the "and" of its float half and its integer half: keep the integer half
  change IntOp.andi _ _ = 1#1 at e
  obtain ⟨-, e⟩ := IntOp.andi_eq_one.1 e
  -- the integer half is a fold by "and" over every (b, n)
  haveI : Subsingleton Cert.Pre_finite_inputs.S_.Idx := ⟨fun a b => funext fun d => d.elim0⟩
  have e3 := Host.reduce_andi_all _ _ _ _ _ e (ValueIdx.ix2 b n)
  -- at (b, n) the element is the "and" of the four comparisons against the constants 0 and 4095
  change IntOp.andi (IntOp.andi (IntOp.andi (IntOp.cmpi .sge (st (ValueIdx.ix2 b n)) 0#32)
      (IntOp.cmpi .sle (st (ValueIdx.ix2 b n)) 4095#32)) (IntOp.cmpi .sge (en (ValueIdx.ix2 b n)) 0#32))
      (IntOp.cmpi .sle (en (ValueIdx.ix2 b n)) 4095#32) = 1#1 at e3
  rw [IntOp.andi_eq_one, IntOp.andi_eq_one, IntOp.andi_eq_one, IntOp.cmpi_sge, IntOp.cmpi_sle, IntOp.cmpi_sge,
    IntOp.cmpi_sle] at e3
  obtain ⟨⟨⟨h1, h2⟩, h3⟩, h4⟩ := e3
  have z : (0#32 : BitVec 32).toInt = 0 := by decide
  have k : (4095#32 : BitVec 32).toInt = 4095 := by decide
  rw [z] at h1 h3
  rw [k] at h2 h4
  exact ⟨⟨h1, h2⟩, ⟨h3, h4⟩⟩

end Cert.SpanPool

end
-- ==== Proof.RefStage.lean ====
/-
  The reference's result read at one index.

  At row b, span n and feature d the reference divides two sums over the 4096 tokens t.  The numerator is the
  contraction of the mask with x, the sum over t of mask(b, n, t) * x(b, t, d); the denominator is the sum of the
  mask over t, started from the constant zero.  The mask at (b, n, t) is the bit (start(b, n) ≤ t) and (t ≤ end(b, n)),
  both comparisons signed with t written as a 32-bit word, turned into the real number 0 or 1: this is the weight
  `wt` of token t for the span (start(b, n), end(b, n)).  So the numerator is `total` of the column x(b, ·, d) and the
  denominator is `tokCount`.  Every layout operation in between only repeats a value along an axis, so reading
  through it is a change of index, and each composed change of index is the evident one coordinate by coordinate.
-/
import proofs.«153696_j31129922962206_2_alg».proof.Proof.Gen.ReferenceIdeal.Read
import proofs.«153696_j31129922962206_2_alg».proof.Proof.SpanMath
import Idealize.ShloMosaic.Lib.ValueIdx

noncomputable section

namespace Cert.SpanPool.Ref

open Idealize.ShloMosaic Cert.ReferenceIdeal Cert.ReferenceIdeal.Read

/-- The mask at (b, n, t), as a real number, is the weight of token t for the span (start(b, n), end(b, n)). -/
theorem mask_apply (x1 x2 : (⟨S16x1024, .i32⟩ : BufTy).Contents (Elt Ideal)) (b : Fin 16) (n : Fin 1024) (t : Fin 4096) :
    val_main_v12 (F := Ideal) x1 x2 (ValueIdx.ix3 b n t)
      = Cert.SpanPool.wt (x1 (ValueIdx.ix2 b n)) (x2 (ValueIdx.ix2 b n)) t.val := by
  have h1 : idx_main_v1 (idx_main_v3 (ValueIdx.ix3 b n t)) = ValueIdx.ix2 b n :=
    funext fun a => Fin.ext (by match a with | ⟨0, _⟩ => rfl | ⟨1, _⟩ => rfl)
  have h6 : idx_main_v6 (idx_main_v9 (ValueIdx.ix3 b n t)) = ValueIdx.ix2 b n :=
    funext fun a => Fin.ext (by match a with | ⟨0, _⟩ => rfl | ⟨1, _⟩ => rfl)
  rw [val_main_v12_apply, val_main_v11_apply, val_main_v5_apply, val_main_v10_apply, val_main_v3_apply,
    val_main_v4_apply, val_main_v1_apply, val_main_v2_apply, val_main_v0_apply, val_main_v8_apply,
    val_main_v9_apply, val_main_v6_apply, val_main_v7_apply, val_main_v0_apply, h1, h6]
  rfl

/-- THE REFERENCE AT AN INDEX: the weighted sum of the column x(b, ·, d) over the span, divided by the span's count. -/
theorem stage_apply (x0 : (⟨S16x4096x128, .f32⟩ : BufTy).Contents (Elt Ideal)) (x1 x2 : (⟨S16x1024, .i32⟩ : BufTy).Contents (Elt Ideal))
    (b : Fin 16) (n : Fin 1024) (d : Fin 128) :
    val_main_v17 (F := Ideal) x0 x1 x2 (ValueIdx.ix3 b n d)
      = Ideal.div (Cert.SpanPool.total (x1 (ValueIdx.ix2 b n)) (x2 (ValueIdx.ix2 b n)) (fun t => x0 (ValueIdx.ix3 b t d)))
                  (Cert.SpanPool.tokCount (x1 (ValueIdx.ix2 b n)) (x2 (ValueIdx.ix2 b n))) := by
  rw [val_main_v17_apply, Ideal.hostDivf_def]
  refine congrArg₂ Ideal.div ?_ ?_
  · -- the numerator: the contraction over t
    rw [val_main_v13_apply]
    unfold Cert.SpanPool.total
    refine Finset.sum_congr rfl fun k _ => ?_
    have hl : lidx_main_v13 (ValueIdx.ix3 b n d) k = ValueIdx.ix3 b n k :=
      funext fun a => Fin.ext (by match a with | ⟨0, _⟩ => rfl | ⟨1, _⟩ => rfl | ⟨2, _⟩ => rfl)
    have hr : ridx_main_v13 (ValueIdx.ix3 b n d) k = ValueIdx.ix3 b k d :=
      funext fun a => Fin.ext (by match a with | ⟨0, _⟩ => rfl | ⟨1, _⟩ => rfl | ⟨2, _⟩ => rfl)
    rw [hl, hr, mask_apply]
  · -- the denominator: the sum of the mask over t, from the constant zero
    rw [val_main_v16_apply, val_main_v15_apply, val_main_v14_apply, val_main_cst_apply, Ideal.ofBits_def,
      Ideal.ofBits_zero_f32]
    unfold Cert.SpanPool.tokCount
    refine congrArg (0 + ·) (Finset.sum_congr rfl fun k _ => ?_)
    have hi : idx_main_v14 (idx_main_v15 (idx_main_v16 (ValueIdx.ix3 b n d))) k = ValueIdx.ix3 b n k :=
      funext fun a => Fin.ext (by match a with | ⟨0, _⟩ => rfl | ⟨1, _⟩ => rfl | ⟨2, _⟩ => rfl)
    rw [hi, mask_apply]

end Cert.SpanPool.Ref

end
-- ==== Proof.KernelEntry.lean ====
/-
  One grid point of the span-pooling kernel, read at an entry.

  At a grid point the body holds a slab of x (one batch row: 4096 tokens by 128 features) and that row's 1024 span
  starts and ends, each as a column.  For node n and feature d it forms, for each of four runs of 1024 consecutive
  tokens, the product of the 0/1 span mask of the run with the run's rows of the slab — at entry (n, d) the sum over the
  run's tokens t of weight(n, t) · x(t, d) — adds the four products to zero in order, and divides by
  max (end(n) - start(n) + 1, 0), the subtraction and the addition on 32-bit words.  Read on the extended reals,
  every step is exact: a 0/1 word widened to 32 bits and converted is the real 0 or 1, a matrix product into the
  zero accumulator is the plain sum over the contracted axis, and the reshapes and broadcasts only move entries.
-/
import proofs.«153696_j31129922962206_2_alg».proof.Proof.Gen.KernelIdeal.Frame
import proofs.«153696_j31129922962206_2_alg».proof.Proof.SpanMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.SpanPool.Kern

open Idealize.ShloMosaic Idealize.ShloMosaic.ValueIdx
open Cert.KernelIdeal Cert.KernelIdeal.Gen Cert.KernelIdeal.Facts Cert.SpanPool

variable [Cert.KernelIdeal.Facts]

/-! ## Layout: a column broadcast along the rows' entries, and a one-bit word made a real -/

/-- A column [1024, 1] broadcast to [1024, b] holds, at (p, q), the column's entry p. -/
theorem col_apply {α : Type} {b : ℕ} (v : (⟨2, ![1024, 1]⟩ : Shape).Idx → α)
    (h : (⟨2, ![1024, 1]⟩ : Shape).Broadcasts ⟨2, ![1024, b]⟩) (p : Fin 1024) (q : Fin b) :
    broadcastTo ⟨2, ![1024, b]⟩ v h (ix2 p q) = v (ix2 p (0 : Fin 1)) := by
  refine broadcastTo_apply v h _ _ fun a => ?_
  match a with
  | ⟨0, _⟩ => show p.val = if (1024 : ℕ) = 1 then 0 else p.val; rw [if_neg (by decide)]
  | ⟨1, _⟩ => show 0 = if (1 : ℕ) = 1 then 0 else _; rw [if_pos rfl]

/-- A one-bit word widened to 32 bits and read as a signed integer is 0 or 1: the bit. -/
theorem toInt_widen : ∀ w : BitVec 1, (w.setWidth 32).toInt = (w.toNat : ℤ) := by decide

theorem real_of_bit (w : BitVec 1) : FloatOps.sitofp (F := Ideal) .f32 (w.setWidth 32) = (((w.toNat : ℝ)) : EReal) := by
  show ((((w.setWidth 32).toInt : ℤ) : ℝ) : EReal) = _
  rw [toInt_widen]; norm_cast

/-! ## The mask -/

/-- The mask bit at (n, j) of the run that starts at token `o`: is token o + j inside node n's span? -/
theorem maskbit_apply (ow : BitVec 32) (o : ℕ) (how : ow = BitVec.ofNat 32 o) (v1 v3 : IVec S1024x1 32) (n j : Fin 1024) :
    andi (cmpi .sle (broadcastTo S1024x1024 v1 broadcasts_S1024x1_S1024x1024)
            (addi (broadcast S1024x1024 ow) (iota .tc S1024x1024 32 [1] iota_S1024x1024_d1_w32)))
         (cmpi .sle (addi (broadcast S1024x1024 ow) (iota .tc S1024x1024 32 [1] iota_S1024x1024_d1_w32))
            (broadcastTo S1024x1024 v3 broadcasts_S1024x1_S1024x1024)) (ix2 n j)
      = inSpan (v1 (ix2 n (0 : Fin 1))) (v3 (ix2 n (0 : Fin 1))) (o + j.val) := by
  show IntOp.andi (IntOp.cmpi .sle (broadcastTo S1024x1024 v1 broadcasts_S1024x1_S1024x1024 (ix2 n j))
          (IntOp.addi ow (iota .tc S1024x1024 32 [1] iota_S1024x1024_d1_w32 (ix2 n j))))
        (IntOp.cmpi .sle (IntOp.addi ow (iota .tc S1024x1024 32 [1] iota_S1024x1024_d1_w32 (ix2 n j)))
          (broadcastTo S1024x1024 v3 broadcasts_S1024x1_S1024x1024 (ix2 n j))) = _
  rw [col_apply v1, col_apply v3, iota_single_apply]
  have e : IntOp.addi ow (BitVec.ofNat 32 ((ix2 n j : S1024x1024.Idx) (1 : Fin 2)).val) = BitVec.ofNat 32 (o + j.val) := by
    subst how
    show BitVec.ofNat 32 o + BitVec.ofNat 32 j.val = _
    rw [← BitVec.ofNat_add]
  rw [e]
  rfl

/-! ## One run's product -/

local notation "D" => dot_S1024x1024_S1024x128_S1024x128_1_0_0_1_n_n

theorem lhs0 (i : S1024x128.Idx) (q : (D).contr.Idx) : ((D).lhsIdx i q 0).val = (i 0).val := by
  unfold DotDims.lhsIdx
  rw [dif_neg (show ¬(0 : Fin S1024x1024.rank) ∈ (D).lhsBatch by decide), dif_pos (show (0 : Fin S1024x1024.rank) ∈ (D).lhsNonContracting by decide)]
  rfl
theorem lhs1 (i : S1024x128.Idx) (q : (D).contr.Idx) : ((D).lhsIdx i q 1).val = (q ⟨0, by decide⟩).val :=
  (D).lhsIdx_val_of_single rfl i q
theorem rhs0 (i : S1024x128.Idx) (q : (D).contr.Idx) : ((D).rhsIdx i q 0).val = (q ⟨0, by decide⟩).val :=
  (D).rhsIdx_val_of_single rfl i q
theorem rhs1 (i : S1024x128.Idx) (q : (D).contr.Idx) : ((D).rhsIdx i q 1).val = (i 1).val := by
  unfold DotDims.rhsIdx
  rw [dif_neg (show ¬(1 : Fin S1024x128.rank) ∈ (D).rhsBatch by decide), dif_pos (show (1 : Fin S1024x128.rank) ∈ (D).rhsNonContracting by decide)]
  rfl

/-- The product of a 0/1 mask [1024, 1024] (made real) with the rows of one run of the slab, into the zero
    accumulator, at (n, d): the sum over the run's positions j of bit(n, j) · x(j, d). -/
theorem masked_product_apply (msk : IVec S1024x1024 1) (xc : Vec Ideal S1x1024x128 .f32) (n : Fin 1024) (d : Fin 128) :
    matmul D (some .fp32) (sitofp (F := Ideal) .f32 (extui 32 msk natLt_1_32))
        (shapeCast S1024x128 xc shapeCasts_S1x1024x128_S1024x128 : FVec Ideal S1024x128 .f32) (constant (F := Ideal) S1024x128 .f32 0x00000000#32) (ix2 n d)
      = ∑ j : Fin 1024, ((((msk (ix2 n j)).toNat : ℝ)) : EReal) * xc (ix3 (0 : Fin 1) j d) := by
  simp only [matmul]
  rw [Ideal.matmul_constant_zero_apply, ← Equiv.sum_comp (ValueIdx.contrEquiv1 D 1024 rfl rfl).symm]
  refine Finset.sum_congr rfl fun k _ => ?_
  have hk := ValueIdx.contrEquiv1_symm_val D 1024 rfl rfl k
  have el : (D).lhsIdx (ix2 n d) ((ValueIdx.contrEquiv1 D 1024 rfl rfl).symm k) = ix2 n k := funext fun a => Fin.ext (by
    match a with
    | ⟨0, _⟩ => exact lhs0 _ _
    | ⟨1, _⟩ => exact (lhs1 _ _).trans hk)
  have er : (D).rhsIdx (ix2 n d) ((ValueIdx.contrEquiv1 D 1024 rfl rfl).symm k) = ix2 k d := funext fun a => Fin.ext (by
    match a with
    | ⟨0, _⟩ => exact (rhs0 _ _).trans hk
    | ⟨1, _⟩ => exact rhs1 _ _)
  rw [el, er, shapeCast_1ab_ab_apply]
  exact congrArg (· * xc (ix3 (0 : Fin 1) k d)) (real_of_bit (msk (ix2 n k)))

/-! ## The body's values at an entry -/

theorem pay2_apply (v0 : Vec Ideal S1x1024x1 .i32) (n : Fin 1024) :
    k0_pay2 (F := Ideal) v0 (ix2 n (0 : Fin 1)) = v0 (ix3 (0 : Fin 1) n (0 : Fin 1)) := by
  unfold k0_pay2
  exact shapeCast_1ab_ab_apply v0 _ n 0

theorem pay3_apply (v2 : Vec Ideal S1x1024x1 .i32) (n : Fin 1024) :
    k0_pay3 (F := Ideal) v2 (ix2 n (0 : Fin 1)) = v2 (ix3 (0 : Fin 1) n (0 : Fin 1)) := by
  unfold k0_pay3
  exact shapeCast_1ab_ab_apply v2 _ n 0

/-- The third run's mask bit at (n, j): token 2048 + j against node n's span. -/
theorem pay5_apply (v0 v2 : Vec Ideal S1x1024x1 .i32) (n j : Fin 1024) :
    k0_pay5 (F := Ideal) v0 v2 (ix2 n j)
      = inSpan (v0 (ix3 (0 : Fin 1) n (0 : Fin 1))) (v2 (ix3 (0 : Fin 1) n (0 : Fin 1))) (2048 + j.val) := by
  unfold k0_pay5
  refine (maskbit_apply 2048#32 2048 rfl (k0_pay2 v0) (k0_pay3 v2) n j).trans ?_
  rw [pay2_apply, pay3_apply]

/-- Zero plus the first two runs' products, at (n, d). -/
theorem pay4_apply (v0 v2 : Vec Ideal S1x1024x1 .i32) (v15 v29 : Vec Ideal S1x1024x128 .f32) (n : Fin 1024) (d : Fin 128) :
    k0_pay4 (F := Ideal) v0 v2 v15 v29 (ix2 n d)
      = (0 + ∑ j : Fin 1024, wt (v0 (ix3 (0 : Fin 1) n (0 : Fin 1))) (v2 (ix3 (0 : Fin 1) n (0 : Fin 1))) (0 + j.val) * v15 (ix3 (0 : Fin 1) j d))
          + ∑ j : Fin 1024, wt (v0 (ix3 (0 : Fin 1) n (0 : Fin 1))) (v2 (ix3 (0 : Fin 1) n (0 : Fin 1))) (1024 + j.val) * v29 (ix3 (0 : Fin 1) j d) := by
  unfold k0_pay4
  dsimp only
  rw [addf_apply, addf_apply, masked_product_apply, masked_product_apply]
  simp only [maskbit_apply 0#32 0 rfl, maskbit_apply 1024#32 1024 rfl, pay2_apply, pay3_apply]
  rw [show broadcast S1024x128 (Scalar.ofBits (F := Ideal) .f32 0x00000000#32) (ix2 n d) = (0 : EReal) from Ideal.ofBits_zero_f32]
  rfl

/-- The stored value at (0, n, d): what was added so far plus the third and fourth runs' products, over the span's
    32-bit length cut off at zero. -/
theorem pay1_apply (v1 v3 : IVec S1024x1 32) (v32 : FVec Ideal S1024x128 .f32) (v40 : IVec S1024x1024 1)
    (v43 v57 : Vec Ideal S1x1024x128 .f32) (n : Fin 1024) (d : Fin 128) :
    k0_pay1 (F := Ideal) v1 v3 v32 v40 v43 v57 (ix3 (0 : Fin 1) n d)
      = Ideal.div ((v32 (ix2 n d) + ∑ j : Fin 1024, ((((v40 (ix2 n j)).toNat : ℝ)) : EReal) * v43 (ix3 (0 : Fin 1) j d))
                    + ∑ j : Fin 1024, wt (v1 (ix2 n (0 : Fin 1))) (v3 (ix2 n (0 : Fin 1))) (3072 + j.val) * v57 (ix3 (0 : Fin 1) j d))
                  (spanLen (v1 (ix2 n (0 : Fin 1))) (v3 (ix2 n (0 : Fin 1)))) := by
  unfold k0_pay1
  dsimp only
  rw [shapeCast_ab_1ab_apply, divf_apply, addf_apply, addf_apply, masked_product_apply, masked_product_apply, col_apply]
  simp only [maskbit_apply 3072#32 3072 rfl]
  show Ideal.div _ (max _ (Ideal.ofBits .f32 0x00000000#32)) = _
  rw [Ideal.ofBits_zero_f32]
  rfl

/-! ## The point's output block -/

theorem zero_off3 : (![0, 0, 0] : Fin 3 → ℕ) = fun _ => 0 := by
  funext a; fin_cases a <;> rfl

/-- A run's rows of the slab: the rectangle of 1024 rows from row `o` reads the slab at row o + j. -/
theorem slab_run (x0 : Vec Ideal S1x4096x128 .f32) (o : ℕ) (ho : o + 1024 ≤ 4096)
    (inb : ∀ a, (![0, o, 0] : Fin 3 → ℕ) a + S1x1024x128.size a ≤ S1x4096x128.size a) (j : Fin 1024) (d : Fin 128) :
    View.ld x0 (Rect.unit (s := S1x4096x128) ![0, o, 0] S1x1024x128.size inb) (ix3 (0 : Fin 1) j d)
      = x0 (ix3 (0 : Fin 1) (tok o ho j) d) := by
  show x0 _ = x0 _
  refine congrArg x0 (funext fun a => Fin.ext ?_)
  match a with
  | ⟨0, _⟩ => show 0 + 1 * 0 = 0; rfl
  | ⟨1, _⟩ => show o + 1 * j.val = o + j.val; rw [Nat.one_mul]
  | ⟨2, _⟩ => show 0 + 1 * d.val = d.val; omega

/-- WHAT A POINT LEAVES IN THE OUTPUT BLOCK at (0, n, d): the weighted sum of column d of the slab, added in four runs,
    over the 32-bit span length cut off at zero. -/
theorem out_apply (x0 : Vec Ideal S1x4096x128 .f32) (x1 x2 : Vec Ideal S1x1024x1 .i32) (n : Fin 1024) (d : Fin 128) :
    out0_3 (F := Ideal) x0 x1 x2 (ix3 (0 : Fin 1) n d)
      = Ideal.div (chunked (x1 (ix3 (0 : Fin 1) n (0 : Fin 1))) (x2 (ix3 (0 : Fin 1) n (0 : Fin 1))) (fun t => x0 (ix3 (0 : Fin 1) t d)))
                  (spanLen (x1 (ix3 (0 : Fin 1) n (0 : Fin 1))) (x2 (ix3 (0 : Fin 1) n (0 : Fin 1)))) := by
  unfold out0_3
  rw [View.canon_unit_zero zero_off3]
  simp only [View.ld_unit_zero (S := S1x1024x1) zero_off3]
  rw [pay1_apply, pay4_apply]
  simp only [pay5_apply, pay2_apply, pay3_apply, slab_run x0 0 (by decide), slab_run x0 1024 (by decide),
    slab_run x0 2048 (by decide), slab_run x0 3072 (by decide)]
  rfl

end Cert.SpanPool.Kern

end
-- ==== Proof.KernelArray.lean ====
/-
  From the grid's blocks to the whole output array.

  The grid has 16 points, one per batch row b.  At point b every window's block is (b, 0, 0): the slab x(b, ·, ·), the
  columns start(b, ·) and end(b, ·) — each a [16, 1024] table viewed as [16, 1024, 1] before the launch — and the
  output block out(b, ·, ·).  The 16 output blocks tile the output array, so after the run the array holds, at
  (b, n, d), what point b stored at (0, n, d): the weighted sum of the column x(b, ·, d) over node n's span, added in
  four runs, divided by the span's 32-bit length cut off at zero.
-/
import proofs.«153696_j31129922962206_2_alg».proof.Proof.Gen.KernelIdeal.Value
import proofs.«153696_j31129922962206_2_alg».proof.Proof.KernelEntry
import Idealize.ShloMosaic.Lib.StableHlo.Run

set_option maxRecDepth 16384

noncomputable section

namespace Cert.SpanPool.Arr

open Idealize.ShloMosaic Idealize.ShloMosaic.TcCoe Idealize.ShloMosaic.ValueIdx Idealize.SL.Sem
open Cert.KernelIdeal Cert.KernelIdeal.Gen Cert.KernelIdeal.Facts Cert.SpanPool
open Idealize.ShloMosaic.Pipeline (Dat)

variable (m : (ℓ : Loc nD τ sig) → Buf (Elt Ideal) ℓ) (ρ : Dev nD → PrngReg)

/-- The kernel's result at (b, n, d), from the whole argument arrays. -/
def entry (x : S16x4096x128.Idx → EReal) (st en : S16x1024.Idx → BitVec 32) (b : Fin 16) (n : Fin 1024) (d : Fin 128) : EReal :=
  Ideal.div (chunked (st (ix2 b n)) (en (ix2 b n)) (fun t => x (ix3 b t d))) (spanLen (st (ix2 b n)) (en (ix2 b n)))

/-- The kernel's result array as one function of the argument arrays. -/
def Gk (x : S16x4096x128.Idx → EReal) (st en : S16x1024.Idx → BitVec 32) : S16x1024x128.Idx → EReal :=
  fun i => entry x st en (i 0) (i 1) (i 2)

/-- The batch row of a grid point. -/
def row (t : Fin cfg0.N) : Fin 16 := ⟨t.val, t.isLt⟩

/-- The printed index maps over the 16 points: every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## The tables as the launch finds them: [16, 1024] viewed as [16, 1024, 1] -/

theorem starts_view (c : Dev nD) :
    (V m c main_v0 : S16x1024x1.Idx → BitVec 32)
      = broadcastInDim S16x1024x1 ![0, 1] bcast_S16x1024_S16x1024x1_0_1 (m ((c : Thread nD τ).loc main_arg1)) := by
  dsimp only [Gen.V, Gen.hostOps0]; after_results

theorem ends_view (c : Dev nD) :
    (V m c main_v1 : S16x1024x1.Idx → BitVec 32)
      = broadcastInDim S16x1024x1 ![0, 1] bcast_S16x1024_S16x1024x1_0_1 (m ((c : Thread nD τ).loc main_arg2)) := by
  dsimp only [Gen.V, Gen.hostOps0]; after_results

/-- A [16, 1024] table viewed as [16, 1024, 1] reads, at (b, n, 0), the table at (b, n). -/
theorem view_apply (T : S16x1024.Idx → BitVec 32) (b : Fin 16) (n : Fin 1024) :
    broadcastInDim S16x1024x1 ![0, 1] bcast_S16x1024_S16x1024x1_0_1 T (ix3 b n (0 : Fin 1)) = T (ix2 b n) :=
  broadcastInDim_apply _ bcast_S16x1024_S16x1024x1_0_1 T _ _ (fun a => match a with
    | ⟨0, _⟩ => by show b.val = if (16 : Nat) = 1 then 0 else b.val; rw [if_neg (by decide)]
    | ⟨1, _⟩ => by show n.val = if (1024 : Nat) = 1 then 0 else n.val; rw [if_neg (by decide)])

/-! ## The windows' blocks at a point -/

theorem slab_apply (c : Dev nD) (t : Fin cfg0.N) (r : Fin 4096) (d : Fin 128) :
    (iblk m c 0 t : Vec Ideal S1x4096x128 .f32) (ix3 (0 : Fin 1) r d) = m ((c : Thread nD τ).loc main_arg0) (ix3 (row t) r d) := by
  show V m c main_arg0 (((cfg0.win 0).blk t).view.emb (ix3 (0 : Fin 1) r d)) = _
  rw [V_main_arg0]
  refine congrArg (m ((c : Thread nD τ).loc main_arg0)) (funext fun a => Fin.ext ?_)
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 4096 + 1 * r.val = r.val; omega
  | ⟨2, _⟩ => show win0_0.index t (2 : Fin 3) * 128 + 1 * d.val = d.val; omega

theorem starts_apply (c : Dev nD) (t : Fin cfg0.N) (n : Fin 1024) :
    (iblk m c 1 t : Vec Ideal S1x1024x1 .i32) (ix3 (0 : Fin 1) n (0 : Fin 1)) = m ((c : Thread nD τ).loc main_arg1) (ix2 (row t) n) := by
  show V m c main_v0 (((cfg0.win 1).blk t).view.emb (ix3 (0 : Fin 1) n (0 : Fin 1))) = _
  have hi : ((cfg0.win 1).blk t).view.emb (ix3 (0 : Fin 1) n (0 : Fin 1)) = ix3 (row t) n (0 : Fin 1) := by
    refine funext fun a => Fin.ext ?_
    obtain ⟨-, ⟨e0, e1, e2⟩, -⟩ := idx_facts t
    match a with
    | ⟨0, _⟩ => show win0_1.index t (0 : Fin 3) * 1 + 1 * 0 = t.val; omega
    | ⟨1, _⟩ => show win0_1.index t (1 : Fin 3) * 1024 + 1 * n.val = n.val; omega
    | ⟨2, _⟩ => show win0_1.index t (2 : Fin 3) * 1 + 1 * 0 = 0; omega
  rw [hi, starts_view, view_apply]

theorem ends_apply (c : Dev nD) (t : Fin cfg0.N) (n : Fin 1024) :
    (iblk m c 2 t : Vec Ideal S1x1024x1 .i32) (ix3 (0 : Fin 1) n (0 : Fin 1)) = m ((c : Thread nD τ).loc main_arg2) (ix2 (row t) n) := by
  show V m c main_v1 (((cfg0.win 2).blk t).view.emb (ix3 (0 : Fin 1) n (0 : Fin 1))) = _
  have hi : ((cfg0.win 2).blk t).view.emb (ix3 (0 : Fin 1) n (0 : Fin 1)) = ix3 (row t) n (0 : Fin 1) := by
    refine funext fun a => Fin.ext ?_
    obtain ⟨-, -, ⟨e0, e1, e2⟩, -⟩ := idx_facts t
    match a with
    | ⟨0, _⟩ => show win0_2.index t (0 : Fin 3) * 1 + 1 * 0 = t.val; omega
    | ⟨1, _⟩ => show win0_2.index t (1 : Fin 3) * 1024 + 1 * n.val = n.val; omega
    | ⟨2, _⟩ => show win0_2.index t (2 : Fin 3) * 1 + 1 * 0 = 0; omega
  rw [hi, ends_view, view_apply]

/-- Entry (0, n, d) of point t's output block is entry (t, n, d) of the output array. -/
theorem out_emb (t : Fin cfg0.N) (n : Fin 1024) (d : Fin 128) :
    ((cfg0.win 3).blk t).view.emb (ix3 (0 : Fin 1) n d) = ix3 (row t) n d := by
  refine funext fun a => Fin.ext ?_
  obtain ⟨-, -, -, ⟨e0, e1, e2⟩⟩ := idx_facts t
  match a with
  | ⟨0, _⟩ => show win0_3.index t (0 : Fin 3) * 1 + 1 * 0 = t.val; omega
  | ⟨1, _⟩ => show win0_3.index t (1 : Fin 3) * 1024 + 1 * n.val = n.val; omega
  | ⟨2, _⟩ => show win0_3.index t (2 : Fin 3) * 128 + 1 * d.val = d.val; omega

/-! ## What a point writes back, the cover, the array after the run -/

/-- WHAT POINT t WRITES BACK is block t of the kernel's result array. -/
theorem flushed_eq (c : Dev nD) (t : Fin cfg0.N) :
    (dats m 0 c).flushed 3 t
      = ((cfg0.win 3).blk t).view.read (Elt Ideal)
          (Gk (m ((c : Thread nD τ).loc main_arg0)) (m ((c : Thread nD τ).loc main_arg1)) (m ((c : Thread nD τ).loc main_arg2))) := by
  rw [Cert.KernelIdeal.Value.flushed3]
  funext y
  show out0_3 (iblk m c 0 t) (iblk m c 1 t) (iblk m c 2 t) y = Gk _ _ _ (((cfg0.win 3).blk t).view.emb y)
  have h0 : (y 0).val = 0 := by have h : (y 0).val < 1 := (y 0).isLt; omega
  obtain ⟨n, d, rfl⟩ : ∃ (n : Fin 1024) (d : Fin 128), y = ix3 (0 : Fin 1) n d :=
    ⟨⟨(y 1).val, (y 1).isLt⟩, ⟨(y 2).val, (y 2).isLt⟩, funext fun a => Fin.ext (by
      match a with
      | ⟨0, _⟩ => exact h0
      | ⟨1, _⟩ => rfl
      | ⟨2, _⟩ => rfl)⟩
  refine (Kern.out_apply (iblk m c 0 t) (iblk m c 1 t) (iblk m c 2 t) n d).trans ?_
  rw [out_emb, starts_apply, ends_apply]
  have hcol : (fun r : Fin 4096 => (iblk m c 0 t : Vec Ideal S1x4096x128 .f32) (ix3 (0 : Fin 1) r d))
      = fun r => m ((c : Thread nD τ).loc main_arg0) (ix3 (row t) r d) := funext fun r => slab_apply m c t r d
  rw [hcol]
  rfl

/-- The 16 output blocks cover the output array: (b, n, d) is in point b's block. -/
theorem cover (i : S16x1024x128.Idx) : ∃ t : Fin cfg0.N, (cfg0.win 3).flush t = true ∧ i ∈ ((cfg0.win 3).blk t).view.set := by
  have hi0 : (i 0).val < 16 := (i 0).isLt
  refine ⟨(⟨(i 0).val, hi0⟩ : Fin cfg0.N), flush0_3 _, ?_⟩
  have hm := ((cfg0.win 3).blk (⟨(i 0).val, hi0⟩ : Fin cfg0.N)).view.emb_mem_set
    (ix3 (0 : Fin 1) (⟨(i 1).val, (i 1).isLt⟩ : Fin 1024) (⟨(i 2).val, (i 2).isLt⟩ : Fin 128))
  rw [out_emb (⟨(i 0).val, hi0⟩ : Fin cfg0.N) (⟨(i 1).val, (i 1).isLt⟩ : Fin 1024) (⟨(i 2).val, (i 2).isLt⟩ : Fin 128)] at hm
  have e : ix3 (row (⟨(i 0).val, hi0⟩ : Fin cfg0.N)) (⟨(i 1).val, (i 1).isLt⟩ : Fin 1024) (⟨(i 2).val, (i 2).isLt⟩ : Fin 128) = i :=
    funext fun a => Fin.ext (by
      match a with
      | ⟨0, _⟩ => rfl
      | ⟨1, _⟩ => rfl
      | ⟨2, _⟩ => rfl)
  rw [e] at hm
  exact hm

/-- THE OUTPUT ARRAY after the run is the kernel's result array. -/
theorem final (c : Dev nD) :
    (dats m 0 c).arrAt 3 cfg0.N
      = Gk (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: it ends with the output at the kernel's result array and the arguments unchanged. -/
theorem run : θ_run defs (onTc (τ := τ) (main (F := Ideal))) ⟨m, fun _ => 0, ρ⟩ fun r => ∀ c : Dev nD,
      r.2.mem ((c : Thread nD τ).loc main_v2)
        = Gk (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.SpanPool.Arr

end
-- ==== Proof.lean ====
/-
  Mean span pooling: the tiled kernel against the plain reference, on the extended reals.

  For a batch row b, a node n with span words (s, e) = (start(b, n), end(b, n)) and a feature d, both programs form
  the weighted sum  Σ_t w(t) · x(b, t, d)  over the 4096 tokens, w(t) = 1 when s ≤ t ≤ e (signed) and 0 otherwise, and
  divide it by a count of the span.

  * The kernel, one grid point per batch row, adds the weighted sum in four runs of 1024 consecutive tokens — each a
    product of the run's 0/1 mask with the run's rows of the slab — from zero, in order, and divides by
    max (e - s + 1, 0), the subtraction and addition on 32-bit words (Proof/KernelEntry.lean: one point's block at an
    entry; Proof/KernelArray.lean: the 16 blocks tile the output array).
  * The reference contracts the whole mask with x and divides by the sum of the mask over the tokens
    (Proof/RefStage.lean, over the generated run of the reference read one operation at a time).

  The two numerators are the same sum: addition of extended reals is associative and commutative, so four runs added
  in order from zero are the whole sum (Proof/SpanMath.lean, chunked_eq_total); no finiteness of x is used.  The two
  divisors agree on the stated domain: the precondition says every span word is a token position, 0 ≤ s, e ≤ 4095
  (Proof/SpanRange.lean reads it back), and then e - s + 1 does not wrap and the number of tokens t with s ≤ t ≤ e is
  max (e - s + 1, 0) (Proof/SpanMath.lean, tokCount_eq_spanLen).  Outside that domain the divisors differ (a span
  reaching below token 0 or above token 4095 is longer than the number of tokens it holds).

  The three frames are the generated ones (the reference's is its generated run with the result dropped); the
  idealization rewrote no operation, so there is nothing to preserve.
-/
import proofs.«153696_j31129922962206_2_alg».proof.Defs
import proofs.«153696_j31129922962206_2_alg».proof.Proof.Gen.Kernel
import proofs.«153696_j31129922962206_2_alg».proof.Proof.Gen.Kernel.Skeleton
import proofs.«153696_j31129922962206_2_alg».proof.Proof.Gen.Kernel.Launch
import proofs.«153696_j31129922962206_2_alg».proof.Proof.Gen.Kernel.Points
import proofs.«153696_j31129922962206_2_alg».proof.Proof.Gen.Kernel.Frame
import proofs.«153696_j31129922962206_2_alg».proof.Proof.Gen.KernelIdeal
import proofs.«153696_j31129922962206_2_alg».proof.Proof.Gen.KernelIdeal.Skeleton
import proofs.«153696_j31129922962206_2_alg».proof.Proof.Gen.KernelIdeal.Launch
import proofs.«153696_j31129922962206_2_alg».proof.Proof.Gen.KernelIdeal.Points
import proofs.«153696_j31129922962206_2_alg».proof.Proof.Gen.KernelIdeal.Frame
import proofs.«153696_j31129922962206_2_alg».proof.Proof.Gen.ReferenceIdeal
import proofs.«153696_j31129922962206_2_alg».proof.Proof.Gen.Pre_finite_inputs
import proofs.«153696_j31129922962206_2_alg».proof.Proof.Gen.KernelIdeal.Value
import proofs.«153696_j31129922962206_2_alg».proof.Proof.Gen.ReferenceIdeal.Run
import proofs.«153696_j31129922962206_2_alg».proof.Proof.Gen.ReferenceIdeal.Read
import proofs.«153696_j31129922962206_2_alg».proof.Proof.SpanMath
import proofs.«153696_j31129922962206_2_alg».proof.Proof.SpanRange
import proofs.«153696_j31129922962206_2_alg».proof.Proof.RefStage
import proofs.«153696_j31129922962206_2_alg».proof.Proof.KernelEntry
import proofs.«153696_j31129922962206_2_alg».proof.Proof.KernelArray
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- ON TOKEN POSITIONS THE TWO RESULT ARRAYS ARE ONE: at (b, n, d) the reference's whole sum over its count is the
    kernel's four runs over the span's 32-bit length. -/
theorem results_agree (x : Cert.KernelIdeal.S16x4096x128.Idx → EReal) (st en : Cert.KernelIdeal.S16x1024.Idx → BitVec 32)
    (hr : ∀ (b : Fin 16) (n : Fin 1024),
      (0 ≤ (st (ix2 b n)).toInt ∧ (st (ix2 b n)).toInt ≤ 4095) ∧ (0 ≤ (en (ix2 b n)).toInt ∧ (en (ix2 b n)).toInt ≤ 4095)) :
    Cert.ReferenceIdeal.Read.val_main_v17 (F := Ideal) x st en = Cert.SpanPool.Arr.Gk x st en := by
  funext i
  obtain ⟨b, n, d, rfl⟩ : ∃ (b : Fin 16) (n : Fin 1024) (d : Fin 128), i = ix3 b n d :=
    ⟨⟨(i 0).val, (i 0).isLt⟩, ⟨(i 1).val, (i 1).isLt⟩, ⟨(i 2).val, (i 2).isLt⟩, funext fun a => Fin.ext (by
      match a with
      | ⟨0, _⟩ => rfl
      | ⟨1, _⟩ => rfl
      | ⟨2, _⟩ => rfl)⟩
  rw [Cert.SpanPool.Ref.stage_apply]
  show _ = Cert.SpanPool.Arr.entry x st en b n d
  unfold Cert.SpanPool.Arr.entry
  obtain ⟨⟨hs0, hs1⟩, he0, he1⟩ := hr b n
  rw [Cert.SpanPool.chunked_eq_total, Cert.SpanPool.tokCount_eq_spanLen _ _ hs0 hs1 he0 he1]

/-- From memories agreeing on the arguments both programs end, the kernel with the output at its result array (its
    blocks assembled) and the reference at its last stage of the same arguments; under the precondition the two are
    one array. -/
theorem algebraic : Cert.algebraic_KernelIdeal_ReferenceIdeal := by
  intro m ρ m' ρ' hpre hagree
  refine ⟨fun c => Cert.SpanPool.Arr.Gk (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.SpanPool.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]
  exact results_agree _ _ _ (fun b n => Cert.SpanPool.range_of_pre _ _ _ (hpre c) b n)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
